-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S4096x64x256 : Shape := ⟨3, ![4096, 64, 256]⟩
abbrev S1x1 : Shape := ⟨2, ![1, 1]⟩
abbrev S64x64x256 : Shape := ⟨3, ![64, 64, 256]⟩
abbrev S64x256 : Shape := ⟨2, ![64, 256]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S64 : Shape := ⟨1, ![64]⟩
abbrev S64x1 : Shape := ⟨2, ![64, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S4096x64x256, .f32⟩
  | .hbm, ⟨2, _⟩ => ⟨S1x1, .f32⟩
  | .hbm, ⟨3, _⟩ => ⟨S_, .f32⟩
  | .local _ .vmem, ⟨0, _⟩ => ⟨S64x64x256, .f32⟩
  | .local _ .vmem, ⟨1, _⟩ => ⟨S64x64x256, .f32⟩
  | .local _ .vmem, ⟨2, _⟩ => ⟨S1x1, .f32⟩
  | .local _ .vmem, ⟨3, _⟩ => ⟨S1x1, .f32⟩
  | .local _ .vmem, ⟨4, _⟩ => ⟨S64x256, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v37 : BitVec 1 := Scalar.cmpi .eq arg0 c63_i32
  let v38 : BitVec 32 := Scalar.extui v37
  let c0_i32_17 : BitVec 32 := 0#32
  let v39 : BitVec 1 := Scalar.cmpi .ne v38 c0_i32_17
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S4096x16384_S4096x64x256 : S4096x16384.ShapeCasts S4096x64x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x64x256_S64x64x256_0_0_0 : ∀ a, (![0, 0, 0] : Fin 3 → Nat) a + S64x64x256.size a ≤ S64x64x256.size a
  h_S64x64x256 : 0 < S64x64x256.numel
  shapeCasts_S64x64x256_S64x64x256 : S64x64x256.ShapeCasts S64x64x256
  shapeCasts_S64x64x256_S4096x256 : S64x64x256.ShapeCasts S4096x256
  reduces_S4096x256_S4096 : S4096x256.Reduces [1] S4096
  shapeCasts_S4096_S4096x1 : S4096.ShapeCasts S4096x1
  broadcasts_S4096x1_S4096x256 : S4096x1.Broadcasts S4096x256
  reduces_S4096x1_S1 : S4096x1.Reduces [0] S1
  shapeCasts_S1_S1x1 : S1.ShapeCasts S1x1
  reduces_S64x64x256_S64x256 : S64x64x256.Reduces [0] S64x256
  reduces_S64x256_S64 : S64x256.Reduces [1] S64
  shapeCasts_S64_S64x1 : S64.ShapeCasts S64x1
  broadcasts_S64x1_S64x256 : S64x1.Broadcasts S64x256
  reduces_S64x1_S1 : S64x1.Reduces [0] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S4096x64x256.size a
  hwx0_0 : ∀ i : grid0.Coords, EltTy.bits .f32 = 32 ∨ (Rect.block (s := S4096x64x256) S64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x16384 : Shape := ⟨2, ![4096, 16384]⟩
abbrev S4096x64x256 : Shape := ⟨3, ![4096, 64, 256]⟩
abbrev S_ : Shape := ⟨0, ![]⟩
abbrev S4096x64 : Shape := ⟨2, ![4096, 64]⟩
abbrev S4096x64x1 : Shape := ⟨3, ![4096, 64, 1]⟩
abbrev S64x256 : Shape := ⟨2, ![64, 256]⟩
abbrev S64 : Shape := ⟨1, ![64]⟩
abbrev S64x1 : Shape := ⟨2, ![64, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x64x256, .f32⟩
  | .hbm, ⟨2, _⟩ => ⟨S_, .f32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S4096x64x1, .f32⟩
  | .hbm, ⟨8, _⟩ => ⟨S4096x64x256, .f32⟩
  | .hbm, ⟨9, _⟩ => ⟨S4096x64x256, .f32⟩
  | .hbm, ⟨10, _⟩ => ⟨S4096x64x256, .f32⟩
  | .hbm, ⟨11, _⟩ => ⟨S_, .f32⟩
  | .hbm, ⟨12, _⟩ => ⟨S4096x64, .f32⟩
  | .hbm, ⟨13, _⟩ => ⟨S4096x64x1, .f32⟩
  | .hbm, ⟨14, _⟩ => ⟨S4096x64x1, .f32⟩
  | .hbm, ⟨15, _⟩ => ⟨S4096x64x256, .f32⟩
  | .hbm, ⟨16, _⟩ => ⟨S4096x64x256, .f32⟩
  | .hbm, ⟨17, _⟩ => ⟨S4096x64x256, .f32⟩
  | .hbm, ⟨18, _⟩ => ⟨S4096x64x256, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x256, .f32⟩
  | .hbm, ⟨28, _⟩ => ⟨S_, .f32⟩
  | .hbm, ⟨29, _⟩ => ⟨S64x256, .f32⟩
  | .hbm, ⟨30, _⟩ => ⟨S64x256, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64x1, .f32⟩
  | .hbm, ⟨37, _⟩ => ⟨S64x256, .f32⟩
  | .hbm, ⟨38, _⟩ => ⟨S64x256, .f32⟩
  | .hbm, ⟨39, _⟩ => ⟨S64x256, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S64x1, .f32⟩
  | .hbm, ⟨44, _⟩ => ⟨S64x256, .f32⟩
  | .hbm, ⟨45, _⟩ => ⟨S64x256, .f32⟩
  | .hbm, ⟨46, _⟩ => ⟨S64x256, .f32⟩
  | .hbm, ⟨47, _⟩ => ⟨S64x256, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_4 : Ref sig .tc := ⟨.hbm, 48, rfl⟩
abbrev main_v14 : Ref sig .tc := ⟨.hbm, 49, rfl⟩
abbrev main_v15 : Ref sig .tc := ⟨.hbm, 50, rfl⟩
abbrev main_cst_5 : Ref sig .tc := ⟨.hbm, 51, rfl⟩
abbrev main_v16 : Ref sig .tc := ⟨.hbm, 52, rfl⟩
abbrev main_v17 : Ref sig .tc := ⟨.hbm, 53, rfl⟩
abbrev main_cst_6 : Ref sig .tc := ⟨.hbm, 54, rfl⟩
abbrev main_v18 : Ref sig .tc := ⟨.hbm, 55, rfl⟩
abbrev main_cst_7 : Ref sig .tc := ⟨.hbm, 56, rfl⟩
abbrev main_v19 : Ref sig .tc := ⟨.hbm, 57, rfl⟩
abbrev main_v20 : Ref sig .tc := ⟨.hbm, 58, rfl⟩

abbrev nD : Nat := 1
abbrev τ : Topo := Topo.v7x

variable {F : FTy → Type} [FloatOps F]

class Facts₀ : Prop where
  shapeCasts_S4096x16384_S4096x64x256 : S4096x16384.ShapeCasts S4096x64x256
  reducesTo_S4096x64x256_S4096x64_d2 : S4096x64x256.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x256_0_1_2 : S4096x64x1.BroadcastsInDim S4096x64x256 (![0, 1, 2] : Fin 3 → Fin S4096x64x256.rank)
  reducesTo_S4096x64_S_d0_1 : S4096x64.ReducesTo [0, 1] S_
  reducesTo_S4096x64x256_S64x256_d0 : S4096x64x256.ReducesTo [0] S64x256
  bcast_S_S64x256 : S_.BroadcastsInDim S64x256 (![] : Fin 0 → Fin S64x256.rank)
  reducesTo_S64x256_S64_d1 : S64x256.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S64_S_d0 : S64.ReducesTo [0] S_

variable [Facts₀]

class Facts : Prop extends Facts₀ where

variable [Facts]
-- ==== Proof.Spec.lean ====
/-
  The loss both programs compute, as one function of the array x[t, m, k] (4096 rows t, 64 blocks m, 256 lanes k)
  over the extended reals.

  For a row r of 256 entries: its maximum M (taken from −∞), the shifted entries r k − M, the logarithm L of the
  sum of their exponentials, the log-softmax entries ℓ k = r k − M − L, and the sum Σ_k exp(ℓ k) · ℓ k, which is
  minus the entropy of softmax r. The loss is

      (Σ_t Σ_m entropy(x[t, m, ·])) / 262144  +  1 · ( −(Σ_m entropy(mean_t x[t, m, ·])) / 64 ),

  the mean over t being the column's total divided by 4096. The three divisors and the factor one are kept as
  the floating-point words both programs write.

  A sum over the 4096 rows is the sum over 64 tiles of 64 consecutive rows each: addition of extended reals is
  commutative and associative, so the regrouping holds at every input, infinite ones included.
-/
import Idealize.ShloMosaic.PureOps.Ideal
import Idealize.ShloMosaic.PureOps.Ideal.Laws

noncomputable section

namespace Cert.Entropy

open Idealize.ShloMosaic

/-- The floating-point word of −∞, as an extended real. -/
abbrev negInf : EReal := Ideal.ofBits .f32 0xFF800000#32

/-- A row's maximum: the fold of max from −∞ over its 256 entries, taken once more against −∞. -/
def rowMax (r : Fin 256 → EReal) : EReal :=
  max negInf ((Finset.univ : Finset (Fin 256)).fold max negInf r)

/-- The logarithm of the sum of the exponentials of the row's entries shifted by its maximum. -/
def rowLse (r : Fin 256 → EReal) : EReal := Ideal.log (∑ k : Fin 256, Ideal.exp (r k - rowMax r))

/-- The row's log-softmax at lane k. -/
def logSoftmax (r : Fin 256 → EReal) (k : Fin 256) : EReal := r k - rowMax r - rowLse r

/-- Σ_k p_k · log p_k for p = softmax r: minus the entropy of the row's softmax. -/
def plogp (r : Fin 256 → EReal) : EReal := ∑ k : Fin 256, Ideal.exp (logSoftmax r k) * logSoftmax r k

/-- The closing arithmetic, from the columns' totals s[m, k] = Σ_t x[t, m, k] and the total e of the rows'
    entropies: e / 262144 + 1 · (−(Σ_m entropy(s[m, ·] / 4096)) / 64). -/
def finish (s : Fin 64 → Fin 256 → EReal) (e : EReal) : EReal :=
  Ideal.div e (Ideal.ofBits .f32 0x48800000#32)
    + Ideal.ofBits .f32 0x3F800000#32
      * Ideal.div (-(∑ m : Fin 64, -plogp (fun k => Ideal.div (s m k) (Ideal.ofBits .f32 0x45800000#32))))
          (Ideal.ofBits .f32 0x42800000#32)

/-- The loss of the array x[t, m, k]. -/
def loss (X : Fin 4096 → Fin 64 → Fin 256 → EReal) : EReal :=
  finish (fun m k => ∑ t : Fin 4096, X t m k) (∑ t : Fin 4096, ∑ m : Fin 64, -plogp (X t m))

/-! ## 4096 rows are 64 tiles of 64 rows -/

/-- Row u of tile i. -/
def tileRow (i u : Fin 64) : Fin 4096 := ⟨i.val * 64 + u.val, by have := i.isLt; have := u.isLt; omega⟩

theorem tileRow_val (i u : Fin 64) : (tileRow i u).val = i.val * 64 + u.val := rfl

/-- (tile, row in the tile) ↔ row. -/
def tileEquiv : Fin 64 × Fin 64 ≃ Fin 4096 where
  toFun p := tileRow p.1 p.2
  invFun t := (⟨t.val / 64, by have := t.isLt; omega⟩, ⟨t.val % 64, by omega⟩)
  left_inv p := by
    obtain ⟨i, u⟩ := p
    have hi := i.isLt
    have hu := u.isLt
    apply Prod.ext <;> apply Fin.ext <;> simp only [tileRow_val] <;> omega
  right_inv t := by
    apply Fin.ext
    simp only [tileRow_val]
    omega

/-- A sum over the rows, tile by tile. -/
theorem sum_tiles {M : Type} [AddCommMonoid M] (f : Fin 4096 → M) :
    ∑ t : Fin 4096, f t = ∑ i : Fin 64, ∑ u : Fin 64, f (tileRow i u) :=
  calc ∑ t : Fin 4096, f t = ∑ p : Fin 64 × Fin 64, f (tileEquiv p) := (Equiv.sum_comp tileEquiv f).symm
    _ = ∑ i : Fin 64, ∑ u : Fin 64, f (tileRow i u) := Fintype.sum_prod_type' (fun i u => f (tileRow i u))

/-- The loss with both sums over t taken tile by tile. -/
theorem loss_tiled (X : Fin 4096 → Fin 64 → Fin 256 → EReal) :
    loss X = finish (fun m k => ∑ i : Fin 64, ∑ p : Fin 64, X (tileRow i p) m k)
      (∑ i : Fin 64, ∑ p : Fin 64, ∑ n : Fin 64, -plogp (X (tileRow i p) n)) := by
  have h1 : (fun m k => ∑ t : Fin 4096, X t m k) = fun m k => ∑ i : Fin 64, ∑ p : Fin 64, X (tileRow i p) m k :=
    funext fun m => funext fun k => sum_tiles (fun t => X t m k)
  unfold loss
  rw [h1, sum_tiles (fun t => ∑ m : Fin 64, -plogp (X t m))]

end Cert.Entropy

end
-- ==== Proof.Array3.lean ====
/-
  The argument array [4096, 16384] seen as x[t, m, k], 64 blocks m of 256 lanes k in each row t: entry (t, m, k)
  is the argument's entry (t, m·256 + k), and the reshape to [4096, 64, 256] reads exactly that, both being the
  row-major position (t·64 + m)·256 + k = t·16384 + m·256 + k.
-/
import Idealize.ShloMosaic.Lib.Pipeline.Value
import Idealize.ShloMosaic.Lib.ValueIdx
import proofs.«164480_j472446403063_2_alg».proof.Proof.Spec

noncomputable section

namespace Cert.Entropy

open Idealize.ShloMosaic Idealize.ShloMosaic.ValueIdx

/-- Lane k of block m in a row of the argument array. -/
def lane (m : Fin 64) (k : Fin 256) : Fin 16384 := ⟨m.val * 256 + k.val, by have := m.isLt; have := k.isLt; omega⟩

/-- The argument array as x[t, m, k]. -/
def arr3 (x : (⟨2, ![4096, 16384]⟩ : Shape).Idx → EReal) (t : Fin 4096) (m : Fin 64) (k : Fin 256) : EReal :=
  x (ix2 t (lane m k))

/-- The reshape to [4096, 64, 256] reads (t, m, k) at (t, m·256 + k). -/
theorem reshape_apply (x : (⟨2, ![4096, 16384]⟩ : Shape).Idx → EReal)
    (h : (⟨2, ![4096, 16384]⟩ : Shape).ShapeCasts ⟨3, ![4096, 64, 256]⟩) (t : Fin 4096) (m : Fin 64) (k : Fin 256) :
    shapeCast ⟨3, ![4096, 64, 256]⟩ x h (ix3 t m k) = arr3 x t m k :=
  shapeCast_apply x h _ _ (by
    rw [Shape.rowMajor_val_two, Shape.rowMajor_val_three]
    show t.val * 16384 + (m.val * 256 + k.val) = (t.val * 64 + m.val) * 256 + k.val
    omega)

end Cert.Entropy

end
-- ==== Proof.RefRead.lean ====
/-
  The reference's result, read stage by stage at an index: it is the loss of the argument array.

  The reference reshapes the argument to [4096, 64, 256] and takes, along the lanes of every row (t, m): the
  maximum from −∞ (once more against −∞), the shifted entries, the logarithm of the sum of their exponentials, the
  log-softmax ℓ, and Σ_k exp ℓ · ℓ negated; it sums that over all (t, m) and divides by 262144. It sums the array
  over t, divides by 4096, runs the same chain on those 64 rows, sums the negated entropies over m, negates,
  divides by 64, multiplies by one and adds. A host sum from the zero word is the sum (0 + s = s), and a host
  negation is the negative.
-/
import proofs.«164480_j472446403063_2_alg».proof.Proof.RefReadP
import proofs.«164480_j472446403063_2_alg».proof.Proof.Array3
import Idealize.ShloMosaic.Lib.ValueIdx
import Idealize.ShloMosaic.PureOps.Reduce
import Idealize.ShloMosaic.PureOps.Ideal.Laws

noncomputable section

namespace Cert.RefRead

open Idealize.ShloMosaic Idealize.ShloMosaic.ValueIdx Cert.ReferenceIdeal Cert.ReferenceIdeal.Gen Cert.ReferenceIdeal.ReadP
  Cert.Entropy

/-! ## The stages' index maps at indices built from coordinates -/

theorem e3 (t : Fin 4096) (m : Fin 64) (u : Fin 1) : idx_main_call0_v3 (ix3 t m u) = ix2 t m :=
  funext fun a => Fin.ext (by match a with | ⟨0, _⟩ => rfl | ⟨1, _⟩ => rfl)
theorem e4 (t : Fin 4096) (m : Fin 64) (k : Fin 256) : idx_main_call0_v4 (ix3 t m k) = ix3 t m (0 : Fin 1) :=
  funext fun a => Fin.ext (by match a with | ⟨0, _⟩ => rfl | ⟨1, _⟩ => rfl | ⟨2, _⟩ => rfl)
theorem e7 (t : Fin 4096) (m : Fin 64) (k : Fin 256) : idx_main_call0_v7 (ix2 t m) k = ix3 t m k :=
  funext fun a => Fin.ext (by match a with | ⟨0, _⟩ => rfl | ⟨1, _⟩ => rfl | ⟨2, _⟩ => rfl)
theorem e8 (t : Fin 4096) (m : Fin 64) (u : Fin 1) : idx_main_call0_v8 (ix3 t m u) = ix2 t m :=
  funext fun a => Fin.ext (by match a with | ⟨0, _⟩ => rfl | ⟨1, _⟩ => rfl)
theorem e10 (t : Fin 4096) (m : Fin 64) (k : Fin 256) : idx_main_call0_v10 (ix3 t m k) = ix3 t m (0 : Fin 1) :=
  funext fun a => Fin.ext (by match a with | ⟨0, _⟩ => rfl | ⟨1, _⟩ => rfl | ⟨2, _⟩ => rfl)
theorem e_v4 (t : Fin 4096) (m : Fin 64) (k : Fin 256) : idx_main_v4 (ix2 t m) k = ix3 t m k :=
  funext fun a => Fin.ext (by match a with | ⟨0, _⟩ => rfl | ⟨1, _⟩ => rfl | ⟨2, _⟩ => rfl)
theorem e_v8 (m : Fin 64) (k : Fin 256) (t : Fin 4096) : idx_main_v8 (ix2 m k) t = ix3 t m k :=
  funext fun a => Fin.ext (by match a with | ⟨0, _⟩ => rfl | ⟨1, _⟩ => rfl | ⟨2, _⟩ => rfl)
theorem f3 (m : Fin 64) (u : Fin 1) : idx_main_call1_v3 (ix2 m u) = ix1 m :=
  funext fun a => Fin.ext (by match a with | ⟨0, _⟩ => rfl)
theorem f4 (m : Fin 64) (k : Fin 256) : idx_main_call1_v4 (ix2 m k) = ix2 m (0 : Fin 1) :=
  funext fun a => Fin.ext (by match a with | ⟨0, _⟩ => rfl | ⟨1, _⟩ => rfl)
theorem f7 (m : Fin 64) (k : Fin 256) : idx_main_call1_v7 (ix1 m) k = ix2 m k :=
  funext fun a => Fin.ext (by match a with | ⟨0, _⟩ => rfl | ⟨1, _⟩ => rfl)
theorem f8 (m : Fin 64) (u : Fin 1) : idx_main_call1_v8 (ix2 m u) = ix1 m :=
  funext fun a => Fin.ext (by match a with | ⟨0, _⟩ => rfl)
theorem f10 (m : Fin 64) (k : Fin 256) : idx_main_call1_v10 (ix2 m k) = ix2 m (0 : Fin 1) :=
  funext fun a => Fin.ext (by match a with | ⟨0, _⟩ => rfl | ⟨1, _⟩ => rfl)
theorem f14 (m : Fin 64) (k : Fin 256) : idx_main_v14 (ix1 m) k = ix2 m k :=
  funext fun a => Fin.ext (by match a with | ⟨0, _⟩ => rfl | ⟨1, _⟩ => rfl)

/-- A sum over the indices of a vector is the sum over its coordinate. -/
theorem sum_idx1 {M : Type} [AddCommMonoid M] {n : ℕ} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

/-- The host's maximum along the lanes, from −∞: the fold of max over the row. -/
theorem hostMax3 (y : FVec Ideal S4096x64x256 .f32) (init : FVec Ideal S_ .f32) (t : Fin 4096) (m : Fin 64) :
    Host.reduce (FloatOps.maximumf (F := Ideal) (φ := .f32)) y init reducesTo_S4096x64x256_S4096x64_d2 h_S_ (ix2 t m)
      = (Finset.univ : Finset (Fin 256)).fold max (init (Shape.Idx.first h_S_)) (fun k => y (ix3 t m k)) := by
  have hR : S4096x64x256.Reduces [2] S4096x64 := by decide
  refine (Host.reduce_eq_fold_single (FloatOps.maximumf (F := Ideal) (φ := .f32)) y init
    reducesTo_S4096x64x256_S4096x64_d2 hR h_S_ (ix2 t m)).trans ?_
  show (Finset.univ : Finset (Fin 256)).fold max (init (Shape.Idx.first h_S_)) (y ∘ hR.lift (ix2 t m)) = _
  refine Finset.fold_congr fun k _ => congrArg y (funext fun c => Fin.ext ?_)
  rw [hR.lift_val]
  match c with
  | ⟨0, _⟩ => rfl
  | ⟨1, _⟩ => rfl
  | ⟨2, _⟩ => rfl

theorem hostMax2 (y : FVec Ideal S64x256 .f32) (init : FVec Ideal S_ .f32) (m : Fin 64) :
    Host.reduce (FloatOps.maximumf (F := Ideal) (φ := .f32)) y init reducesTo_S64x256_S64_d1 h_S_ (ix1 m)
      = (Finset.univ : Finset (Fin 256)).fold max (init (Shape.Idx.first h_S_)) (fun k => y (ix2 m k)) := by
  have hR : S64x256.Reduces [1] S64 := by decide
  refine (Host.reduce_eq_fold_single (FloatOps.maximumf (F := Ideal) (φ := .f32)) y init
    reducesTo_S64x256_S64_d1 hR h_S_ (ix1 m)).trans ?_
  show (Finset.univ : Finset (Fin 256)).fold max (init (Shape.Idx.first h_S_)) (y ∘ hR.lift (ix1 m)) = _
  refine Finset.fold_congr fun k _ => congrArg y (funext fun c => Fin.ext ?_)
  rw [hR.lift_val]
  match c with
  | ⟨0, _⟩ => rfl
  | ⟨1, _⟩ => rfl

variable (x : (⟨S4096x16384, .f32⟩ : BufTy).Contents (Elt Ideal))

/-! ## The rows (t, m) of the array -/

theorem v0_apply (t : Fin 4096) (m : Fin 64) (k : Fin 256) : val_main_v0 (F := Ideal) x (ix3 t m k) = arr3 x t m k := by
  unfold val_main_v0
  exact reshape_apply x _ t m k

theorem max0 (t : Fin 4096) (m : Fin 64) : val_main_call0_v2 (F := Ideal) x (ix2 t m) = rowMax (arr3 x t m) := by
  rw [val_main_call0_v2_apply, val_main_call0_v1_apply, val_main_call0_cst_0_apply]
  unfold val_main_call0_v0
  rw [hostMax3, val_main_call0_cst_apply]
  simp only [v0_apply]
  rfl

theorem sh0 (t : Fin 4096) (m : Fin 64) (k : Fin 256) :
    val_main_call0_v5 (F := Ideal) x (ix3 t m k) = arr3 x t m k - rowMax (arr3 x t m) := by
  rw [val_main_call0_v5_apply, val_main_call0_v4_apply, val_main_call0_v3_apply, e4, e3, v0_apply, max0]
  rfl

theorem lse0 (t : Fin 4096) (m : Fin 64) (u : Fin 1) :
    val_main_call0_v9 (F := Ideal) x (ix3 t m u) = rowLse (arr3 x t m) := by
  rw [val_main_call0_v9_apply, val_main_call0_v8_apply, e8, val_main_call0_v7_apply, val_main_call0_cst_1_apply]
  simp only [val_main_call0_v6_apply, e7, sh0, Ideal.hostUnary_exp_def, Ideal.hostUnary_log_def, Ideal.ofBits_def,
    Ideal.ofBits_zero_f32, zero_add]
  rfl

theorem lsm0 (t : Fin 4096) (m : Fin 64) (k : Fin 256) :
    val_main_v1 (F := Ideal) x (ix3 t m k) = logSoftmax (arr3 x t m) k := by
  rw [val_main_v1_apply, val_main_call0_v10_apply, e10, sh0, lse0]
  rfl

theorem ent0 (t : Fin 4096) (m : Fin 64) : val_main_v5 (F := Ideal) x (ix2 t m) = -plogp (arr3 x t m) := by
  rw [val_main_v5_apply, val_main_v4_apply, val_main_cst_apply]
  simp only [val_main_v3_apply, val_main_v2_apply, e_v4, lsm0, Ideal.hostUnary_exp_def, Ideal.hostNegf_def,
    Ideal.negf_def, Ideal.mulf_def, Ideal.ofBits_def, Ideal.ofBits_zero_f32, zero_add]
  rfl

/-! ## The rows m of the block means -/

/-- The block mean's row m: the column totals over t divided by 4096. -/
def meanRow (m : Fin 64) (k : Fin 256) : EReal :=
  Ideal.div (∑ t : Fin 4096, arr3 x t m k) (Ideal.ofBits .f32 0x45800000#32)

theorem mean_apply (m : Fin 64) (k : Fin 256) : val_main_v10 (F := Ideal) x (ix2 m k) = meanRow x m k := by
  rw [val_main_v10_apply, val_main_v8_apply, val_main_v9_apply, val_main_cst_3_apply, val_main_cst_2_apply]
  simp only [e_v8, v0_apply, Ideal.hostDivf_def, Ideal.ofBits_def, Ideal.ofBits_zero_f32, zero_add]
  rfl

theorem max1 (m : Fin 64) : val_main_call1_v2 (F := Ideal) x (ix1 m) = rowMax (meanRow x m) := by
  rw [val_main_call1_v2_apply, val_main_call1_v1_apply, val_main_call1_cst_0_apply]
  unfold val_main_call1_v0
  rw [hostMax2, val_main_call1_cst_apply]
  simp only [mean_apply]
  rfl

theorem sh1 (m : Fin 64) (k : Fin 256) :
    val_main_call1_v5 (F := Ideal) x (ix2 m k) = meanRow x m k - rowMax (meanRow x m) := by
  rw [val_main_call1_v5_apply, val_main_call1_v4_apply, val_main_call1_v3_apply, f4, f3, mean_apply, max1]
  rfl

theorem lse1 (m : Fin 64) (u : Fin 1) : val_main_call1_v9 (F := Ideal) x (ix2 m u) = rowLse (meanRow x m) := by
  rw [val_main_call1_v9_apply, val_main_call1_v8_apply, f8, val_main_call1_v7_apply, val_main_call1_cst_1_apply]
  simp only [val_main_call1_v6_apply, f7, sh1, Ideal.hostUnary_exp_def, Ideal.hostUnary_log_def, Ideal.ofBits_def,
    Ideal.ofBits_zero_f32, zero_add]
  rfl

theorem lsm1 (m : Fin 64) (k : Fin 256) : val_main_v11 (F := Ideal) x (ix2 m k) = logSoftmax (meanRow x m) k := by
  rw [val_main_v11_apply, val_main_call1_v10_apply, f10, sh1, lse1]
  rfl

theorem ent1 (m : Fin 64) : val_main_v15 (F := Ideal) x (ix1 m) = -plogp (meanRow x m) := by
  rw [val_main_v15_apply, val_main_v14_apply, val_main_cst_4_apply]
  simp only [val_main_v13_apply, val_main_v12_apply, f14, lsm1, Ideal.hostUnary_exp_def, Ideal.hostNegf_def,
    Ideal.negf_def, Ideal.mulf_def, Ideal.ofBits_def, Ideal.ofBits_zero_f32, zero_add]
  rfl

/-! ## The result -/

/-- The reference's result is the loss of the argument array. -/
theorem result_eq (i : S_.Idx) : val_main_v20 (F := Ideal) x i = loss (arr3 x) := by
  rw [val_main_v20_apply, val_main_v19_apply, val_main_v18_apply, val_main_v17_apply, val_main_v16_apply,
    val_main_v7_apply, val_main_v6_apply, val_main_cst_7_apply, val_main_cst_6_apply, val_main_cst_5_apply,
    val_main_cst_1_apply, val_main_cst_0_apply, sum_idx2, sum_idx1]
  simp only [ent0, ent1, Ideal.hostDivf_def, Ideal.hostNegf_def, Ideal.negf_def, Ideal.mulf_def, Ideal.addf_def,
    Ideal.ofBits_def, Ideal.ofBits_zero_f32, zero_add]
  rfl

end Cert.RefRead

end
-- ==== Proof.KernelCases.lean ====
/-
  What each control case of the kernel body leaves in the two accumulators and in the output, as the body's pure
  terms of what it loaded.

  At the first grid point the body stores zero into both accumulators and reads it back, so it leaves there the
  update of zero by the point's tile. At every later point it leaves the update of what the point before left.
  At the last point it also stores the output: the closing arithmetic of the two accumulators as just updated
  (the loads of both follow their stores, so they read the updated values).
-/
import proofs.«164480_j472446403063_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg1 : Memref sig .tc .vmem S64x64x256 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x256 .f32) (harg4 : arg4.IsWhole)

/-- First point, entropy accumulator: zero updated by the tile. -/
theorem first_ent (hc0 : cond0_0 i) (hc1 : ¬cond0_1 i) (x0 : Vec F S64x64x256 .f32) :
    sout0_A_0 c i arg1 harg1 arg2 harg2 arg3 harg3 arg4 harg4 hc0 hc1 x0 = k0_pay5 x0 (k0_pay2 (F := F)) := by
  unfold sout0_A_0
  rw [View.read_writes_eq_canon _ _ _ (scover0_A_0 c i arg1 harg1 arg2 harg2 arg3 harg3 arg4 harg4 hc0 hc1 x0)]
  unfold kernelRun0_A
  dsimp only
  sl_unfold_words
  rw [View.canon_cons_unit_zero (S := S1x1) hz2, View.readCov_unit_zero (S := S1x1) _ hz2]
  simp only [View.readAt_eq_ld, harg1.read_unread, View.ld_unit_zero (S := S64x64x256) hz3]

/-- First point, block-sum accumulator: zero updated by the tile. -/
theorem first_sum (hc0 : cond0_0 i) (hc1 : ¬cond0_1 i) (x0 : Vec F S64x64x256 .f32) :
    sout0_A_1 c i arg1 harg1 arg2 harg2 arg3 harg3 arg4 harg4 hc0 hc1 x0 = k0_pay6 x0 (k0_pay3 (F := F)) := by
  unfold sout0_A_1
  rw [View.read_writes_eq_canon _ _ _ (scover0_A_1 c i arg1 harg1 arg2 harg2 arg3 harg3 arg4 harg4 hc0 hc1 x0)]
  unfold kernelRun0_A
  dsimp only
  sl_unfold_words
  rw [View.canon_cons_unit_zero (S := S64x256) hz2, View.readCov_unit_zero (S := S64x256) _ hz2]
  simp only [View.readAt_eq_ld, harg1.read_unread, View.ld_unit_zero (S := S64x64x256) hz3]

/-- A middle point, entropy accumulator: what the point before left, updated by the tile. -/
theorem mid_ent (hc0 : ¬cond0_0 i) (hc1 : ¬cond0_1 i) (x0 : Vec F S64x64x256 .f32) (xs0 : Vec F S1x1 .f32)
    (xs1 : Vec F S64x256 .f32) :
    sout0_B_0 c i arg1 harg1 arg2 harg2 arg3 harg3 arg4 harg4 hc0 hc1 x0 xs0 xs1 = k0_pay5 x0 xs0 := by
  unfold sout0_B_0
  rw [View.read_writes_eq_canon _ _ _ (scover0_B_0 c i arg1 harg1 arg2 harg2 arg3 harg3 arg4 harg4 hc0 hc1 x0 xs0 xs1)]
  unfold kernelRun0_B
  dsimp only
  sl_unfold_words
  rw [View.canon_unit_zero (S := S1x1) hz2]
  simp only [View.readAt_eq_ld, harg1.read_unread, harg3.read_unread, View.ld_unit_zero (S := S64x64x256) hz3,
    View.ld_unit_zero (S := S1x1) hz2]

/-- A middle point, block-sum accumulator. -/
theorem mid_sum (hc0 : ¬cond0_0 i) (hc1 : ¬cond0_1 i) (x0 : Vec F S64x64x256 .f32) (xs0 : Vec F S1x1 .f32)
    (xs1 : Vec F S64x256 .f32) :
    sout0_B_1 c i arg1 harg1 arg2 harg2 arg3 harg3 arg4 harg4 hc0 hc1 x0 xs0 xs1 = k0_pay6 x0 xs1 := by
  unfold sout0_B_1
  rw [View.read_writes_eq_canon _ _ _ (scover0_B_1 c i arg1 harg1 arg2 harg2 arg3 harg3 arg4 harg4 hc0 hc1 x0 xs0 xs1)]
  unfold kernelRun0_B
  dsimp only
  sl_unfold_words
  rw [View.canon_unit_zero (S := S64x256) hz2]
  simp only [View.readAt_eq_ld, harg1.read_unread, harg4.read_unread, View.ld_unit_zero (S := S64x64x256) hz3,
    View.ld_unit_zero (S := S64x256) hz2]

/-- The last point, entropy accumulator. -/
theorem last_ent (hc0 : ¬cond0_0 i) (hc1 : cond0_1 i) (x0 : Vec F S64x64x256 .f32) (xs0 : Vec F S1x1 .f32)
    (xs1 : Vec F S64x256 .f32) :
    sout0_C_0 c i arg1 harg1 arg2 harg2 arg3 harg3 arg4 harg4 hc0 hc1 x0 xs0 xs1 = k0_pay5 x0 xs0 := by
  unfold sout0_C_0
  rw [View.read_writes_eq_canon _ _ _ (scover0_C_0 c i arg1 harg1 arg2 harg2 arg3 harg3 arg4 harg4 hc0 hc1 x0 xs0 xs1)]
  unfold kernelRun0_C
  dsimp only
  sl_unfold_words
  rw [View.canon_unit_zero (S := S1x1) hz2]
  simp only [View.readAt_eq_ld, harg1.read_unread, harg3.read_unread, View.ld_unit_zero (S := S64x64x256) hz3,
    View.ld_unit_zero (S := S1x1) hz2]

/-- The last point, block-sum accumulator. -/
theorem last_sum (hc0 : ¬cond0_0 i) (hc1 : cond0_1 i) (x0 : Vec F S64x64x256 .f32) (xs0 : Vec F S1x1 .f32)
    (xs1 : Vec F S64x256 .f32) :
    sout0_C_1 c i arg1 harg1 arg2 harg2 arg3 harg3 arg4 harg4 hc0 hc1 x0 xs0 xs1 = k0_pay6 x0 xs1 := by
  unfold sout0_C_1
  rw [View.read_writes_eq_canon _ _ _ (scover0_C_1 c i arg1 harg1 arg2 harg2 arg3 harg3 arg4 harg4 hc0 hc1 x0 xs0 xs1)]
  unfold kernelRun0_C
  dsimp only
  sl_unfold_words
  rw [View.canon_unit_zero (S := S64x256) hz2]
  simp only [View.readAt_eq_ld, harg1.read_unread, harg4.read_unread, View.ld_unit_zero (S := S64x64x256) hz3,
    View.ld_unit_zero (S := S64x256) hz2]

/-- The last point, the output: the closing arithmetic of the two accumulators as just updated. -/
theorem last_out (hc0 : ¬cond0_0 i) (hc1 : cond0_1 i) (x0 : Vec F S64x64x256 .f32) (xs0 : Vec F S1x1 .f32)
    (xs1 : Vec F S64x256 .f32) :
    out0_C_1 c i arg1 harg1 arg2 harg2 arg3 harg3 arg4 harg4 hc0 hc1 x0 xs0 xs1 = k0_pay1 (k0_pay6 x0 xs1) (k0_pay5 x0 xs0) := by
  unfold out0_C_1
  rw [View.read_writes_eq_canon _ _ _ (cover0_C_1 c i arg1 harg1 arg2 harg2 arg3 harg3 arg4 harg4 hc0 hc1 x0 xs0 xs1)]
  unfold kernelRun0_C
  dsimp only
  sl_unfold_words
  rw [View.canon_unit_zero (S := S1x1) hz2, View.readCov_unit_zero (S := S64x256) _ hz2,
    View.readCov_unit_zero (S := S1x1) _ hz2]
  simp only [View.readAt_eq_ld, harg1.read_unread, harg3.read_unread, harg4.read_unread,
    View.ld_unit_zero (S := S64x64x256) hz3, View.ld_unit_zero (S := S1x1) hz2, View.ld_unit_zero (S := S64x256) hz2]

end Cert.KernelIdeal.Cases

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«164480_j472446403063_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.EntropyColumn.lean ====
/-
  The entropy of each row's softmax as a chain of vector operations on an [a, 256] matrix of extended reals, read
  at a row.

  The chain is the one both programs run: the rows' maxima (a max-reduction over the lanes from −∞, taken once more
  against −∞), stood up as a column and broadcast back over the lanes; the shifted entries; their exponentials
  summed along the lanes; the logarithm of that column broadcast back; the log-softmax entries ℓ; the lane sums
  of exp ℓ · ℓ as a column; and zero minus that column. At row r the result is 0 − Σ_k exp(ℓ k) · ℓ k for the
  row's own 256 entries: each reduction reads the row only, and each broadcast gives the row its own value back.

  Beside it: a max-reduction along the lanes read at a row as the fold of max over the row, and a sum over the
  leading axis of a rank-3 array read at (m, k) as the sum over that axis.
-/
import Idealize.ShloMosaic.Lib.Pipeline.Value
import Idealize.ShloMosaic.Lib.ValueIdx
import Idealize.ShloMosaic.Lib.ValueLayout
import Idealize.ShloMosaic.PureOps.Ideal.Laws
import proofs.«164480_j472446403063_2_alg».proof.Proof.LibLayout
import proofs.«164480_j472446403063_2_alg».proof.Proof.LibRowSum
import proofs.«164480_j472446403063_2_alg».proof.Proof.LibVecIx2
import proofs.«164480_j472446403063_2_alg».proof.Proof.Spec

noncomputable section

namespace Cert.EntropyColumn

open Idealize.ShloMosaic Idealize.ShloMosaic.ValueIdx Cert.Entropy

theorem exp_apply {s : Shape} (a : FVec Ideal s .f32) (i : s.Idx) : exp a i = Ideal.exp (a i) := rfl
theorem log_apply {s : Shape} (a : FVec Ideal s .f32) (i : s.Idx) : log a i = Ideal.log (a i) := rfl
theorem scalar_ofBits (b : BitVec 32) : Scalar.ofBits (F := Ideal) .f32 b = Ideal.ofBits .f32 b := rfl

/-- The maximum over axis 1 of an [a, b] matrix, from −∞: entry p is the fold of max over row p. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The sum over axis 0 of an [a, b, c] array, from a zero accumulator: entry (m, k) is the sum over the
    leading coordinate. -/
theorem reduce_lead3 {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (m : Fin b) (k : Fin c) :
    multiReduction .add [0] ⟨2, ![b, c]⟩ src 0x00000000#32 h hφ hacc (ix2 m k) = ∑ p : Fin a, src (ix3 p m k) := by
  refine (Ideal.multiReduction_add_single src 0x00000000#32 h hφ hacc (ix2 m k)).trans ?_
  refine Finset.sum_congr rfl fun p _ => congrArg src (funext fun d => Fin.ext ?_)
  rw [h.lift_val]
  match d with
  | ⟨0, _⟩ => rfl
  | ⟨1, _⟩ => rfl
  | ⟨2, _⟩ => rfl

/-- The three reductions with the accumulator's neutrality stated on the words themselves, as a program that writes
    the accumulator's word states it. -/
theorem reduce_cols' {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) :=
  Cert.Lib.RowSum.reduce_cols src h hφ hacc p

theorem reduce_cols_max' {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  reduce_cols_max src h hφ hacc p

theorem reduce_lead3' {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = 0x00000000#32) (m : Fin b) (k : Fin c) :
    multiReduction .add [0] ⟨2, ![b, c]⟩ src 0x00000000#32 h hφ hacc (ix2 m k) = ∑ p : Fin a, src (ix3 p m k) :=
  reduce_lead3 src h hφ hacc m k

/-! ## The chain, link by link

Each link is stated as the vector operations compute it and read at an index: a reduction along the lanes at row p
sees row p only, and a column broadcast back over the lanes returns to (p, k) the column's entry at p. -/

section Chain

variable {a : ℕ} (x : FVec Ideal ⟨2, ![a, 256]⟩ .f32)
  (hr : (⟨2, ![a, 256]⟩ : Shape).Reduces [1] ⟨1, ![a]⟩)
  (hc : (⟨1, ![a]⟩ : Shape).ShapeCasts ⟨2, ![a, 1]⟩)
  (hb : (⟨2, ![a, 1]⟩ : Shape).Broadcasts ⟨2, ![a, 256]⟩)

/-- The rows' maxima as a column. -/
def maxCol : FVec Ideal ⟨2, ![a, 1]⟩ .f32 :=
  shapeCast ⟨2, ![a, 1]⟩
    (maximumf (broadcast ⟨1, ![a]⟩ (Scalar.ofBits .f32 0xFF800000#32))
      (multiReduction .maximumf [1] ⟨1, ![a]⟩ x 0xFF800000#32 hr (.inl rfl) rfl)) hc

theorem maxCol_apply (p : Fin a) (u : Fin 1) : maxCol x hr hc (ix2 p u) = rowMax (fun k => x (ix2 p k)) := by
  unfold maxCol
  rw [Cert.LibLayout.shapeCast_a_a1_apply, maximumf_apply, reduce_cols_max']
  rfl

/-- The entries shifted by their row's maximum. -/
def shifted : FVec Ideal ⟨2, ![a, 256]⟩ .f32 := subf x (broadcastTo ⟨2, ![a, 256]⟩ (maxCol x hr hc) hb)

theorem shifted_apply (p : Fin a) (k : Fin 256) :
    shifted x hr hc hb (ix2 p k) = x (ix2 p k) - rowMax (fun k => x (ix2 p k)) := by
  unfold shifted
  rw [subf_apply, Cert.Lib.VecIx2.bcast_col, maxCol_apply]

/-- The logarithm of each row's sum of exponentials, as a column. -/
def lseCol : FVec Ideal ⟨2, ![a, 1]⟩ .f32 :=
  log (shapeCast ⟨2, ![a, 1]⟩
    (multiReduction .add [1] ⟨1, ![a]⟩ (exp (shifted x hr hc hb)) 0x00000000#32 hr (.inl rfl) rfl) hc)

theorem lseCol_apply (p : Fin a) (u : Fin 1) : lseCol x hr hc hb (ix2 p u) = rowLse (fun k => x (ix2 p k)) := by
  unfold lseCol
  rw [log_apply, Cert.LibLayout.shapeCast_a_a1_apply, reduce_cols']
  simp only [exp_apply, shifted_apply]
  rfl

/-- The rows' log-softmax. -/
def lsm : FVec Ideal ⟨2, ![a, 256]⟩ .f32 :=
  subf (shifted x hr hc hb) (broadcastTo ⟨2, ![a, 256]⟩ (lseCol x hr hc hb) hb)

theorem lsm_apply (p : Fin a) (k : Fin 256) :
    lsm x hr hc hb (ix2 p k) = logSoftmax (fun k => x (ix2 p k)) k := by
  unfold lsm
  rw [subf_apply, Cert.Lib.VecIx2.bcast_col, lseCol_apply, shifted_apply]
  rfl

/-- Zero minus the lane sums of exp ℓ · ℓ, ℓ the rows' log-softmax, as a column. -/
def negEntCol : FVec Ideal ⟨2, ![a, 1]⟩ .f32 :=
  subf (broadcast ⟨2, ![a, 1]⟩ (Scalar.ofBits .f32 0x00000000#32))
    (shapeCast ⟨2, ![a, 1]⟩
      (multiReduction .add [1] ⟨1, ![a]⟩ (mulf (exp (lsm x hr hc hb)) (lsm x hr hc hb)) 0x00000000#32 hr (.inl rfl) rfl) hc)

/-- At row r the chain gives zero minus Σ_k exp(ℓ k) · ℓ k of that row's entries. -/
theorem negEntCol_apply (r : Fin a) (u : Fin 1) :
    negEntCol x hr hc hb (ix2 r u) = Ideal.ofBits .f32 0x00000000#32 - plogp (fun k => x (ix2 r k)) := by
  unfold negEntCol
  rw [subf_apply, broadcast_apply, Cert.LibLayout.shapeCast_a_a1_apply, reduce_cols']
  simp only [mulf_apply, exp_apply, lsm_apply]
  rfl

end Chain

end Cert.EntropyColumn

end
-- ==== Proof.KernelPayload.lean ====
/-
  The kernel body's arithmetic, read at an index over the extended reals.

  Per grid point the body adds to the entropy accumulator the tile's total: the tile [64, 64, 256] flattened to
  4096 rows of 256 lanes, zero minus Σ_k exp(ℓ k) · ℓ k of each row, summed over the rows; row p·64 + n of the
  flat tile is row n of the tile's member p, so the total is the double sum over (p, n). To the block-sum
  accumulator it adds, at (m, k), the sum of the tile over its leading axis. At the last point the output is the
  closing arithmetic of the two accumulators: the block sums divided by 4096, the same entropy chain on those 64
  rows, their total negated and divided by 64, times one, added to the entropy total divided by 262144.
-/
import proofs.«164480_j472446403063_2_alg».proof.Proof.Gen.KernelIdeal.Skeleton
import proofs.«164480_j472446403063_2_alg».proof.Proof.EntropyColumn

noncomputable section

namespace Cert.KernelIdeal.Payload

open Idealize.ShloMosaic Idealize.ShloMosaic.ValueIdx Cert.KernelIdeal Cert.KernelIdeal.Gen Cert.Entropy
  Cert.EntropyColumn

/-- Row (tile row p, block n) of the flattened tile is row n of member p. -/
theorem flat_apply (v : S64x64x256.Idx → EReal) (h : S64x64x256.ShapeCasts S4096x256) (p n : Fin 64) (k : Fin 256) :
    shapeCast S4096x256 v h (ix2 (tileRow p n) k) = v (ix3 p n k) :=
  Cert.LibLayout.shapeCast_abc_mc_apply v h (tileRow p n) p n k rfl

/-- The entropy accumulator's update, in the column vocabulary. -/
theorem pay5_eq (v3 : Vec Ideal S64x64x256 .f32) (v26 : Vec Ideal S1x1 .f32) :
    k0_pay5 (F := Ideal) v3 v26 =
      shapeCast S1x1 (addf v26 (shapeCast S1x1 (multiReduction .add [0] S1
        (negEntCol (shapeCast S4096x256 (shapeCast S64x64x256 v3 shapeCasts_S64x64x256_S64x64x256) shapeCasts_S64x64x256_S4096x256)
          reduces_S4096x256_S4096 shapeCasts_S4096_S4096x1 broadcasts_S4096x1_S4096x256)
        0x00000000#32 reduces_S4096x1_S1 (.inl rfl) rfl) shapeCasts_S1_S1x1)) shapeCasts_S1x1_S1x1 := rfl

/-- The entropy accumulator after a point: what it held plus the tile's total of zero minus Σ_k exp ℓ · ℓ over
    the tile's 64 × 64 rows. -/
theorem pay5_apply (v3 : Vec Ideal S64x64x256 .f32) (v26 : Vec Ideal S1x1 .f32) (y : S1x1.Idx) :
    k0_pay5 (F := Ideal) v3 v26 y
      = v26 y + ∑ p : Fin 64, ∑ n : Fin 64, (Ideal.ofBits .f32 0x00000000#32 - plogp (fun k => v3 (ix3 p n k))) := by
  obtain ⟨p0, q0, rfl⟩ : ∃ (p : Fin 1) (q : Fin 1), y = ix2 p q := ⟨y 0, y 1, eq_ix2 y⟩
  rw [pay5_eq, shapeCast_self, addf_apply, Cert.LibLayout.shapeCast_a_a1_apply, Cert.Lib.VecIx2.reduce_rows']
  simp only [negEntCol_apply]
  rw [sum_tiles]
  simp only [flat_apply, shapeCast_self]

/-- The block-sum accumulator after a point: what it held plus the tile summed over its leading axis. -/
theorem pay6_apply (v3 : Vec Ideal S64x64x256 .f32) (v31 : Vec Ideal S64x256 .f32) (m : Fin 64) (k : Fin 256) :
    k0_pay6 (F := Ideal) v3 v31 (ix2 m k) = v31 (ix2 m k) + ∑ p : Fin 64, v3 (ix3 p m k) := by
  unfold k0_pay6 k0_pay4
  simp only [shapeCast_self]
  rw [addf_apply, reduce_lead3']

/-- The output's value, in the column vocabulary. -/
theorem pay1_eq (v40 : Vec Ideal S64x256 .f32) (v67 : Vec Ideal S1x1 .f32) :
    k0_pay1 (F := Ideal) v40 v67 =
      addf (divf v67 (broadcast S1x1 (Scalar.ofBits .f32 0x48800000#32)))
        (mulf (broadcast S1x1 (Scalar.ofBits .f32 0x3F800000#32))
          (divf (subf (broadcast S1x1 (Scalar.ofBits .f32 0x00000000#32))
              (shapeCast S1x1 (multiReduction .add [0] S1
                (negEntCol (divf v40 (broadcast S64x256 (Scalar.ofBits .f32 0x45800000#32)))
                  reduces_S64x256_S64 shapeCasts_S64_S64x1 broadcasts_S64x1_S64x256)
                0x00000000#32 reduces_S64x1_S1 (.inl rfl) rfl) shapeCasts_S1_S1x1))
            (broadcast S1x1 (Scalar.ofBits .f32 0x42800000#32)))) := rfl

/-- The output at the last point: the closing arithmetic of the block sums and the entropy total. -/
theorem pay1_apply (v40 : Vec Ideal S64x256 .f32) (v67 : Vec Ideal S1x1 .f32) (y : S1x1.Idx) :
    k0_pay1 (F := Ideal) v40 v67 y = finish (fun m k => v40 (ix2 m k)) (v67 y) := by
  obtain ⟨p0, q0, rfl⟩ : ∃ (p : Fin 1) (q : Fin 1), y = ix2 p q := ⟨y 0, y 1, eq_ix2 y⟩
  rw [pay1_eq]
  simp only [addf_apply, mulf_apply, divf_apply, subf_apply, broadcast_apply, scalar_ofBits,
    Cert.LibLayout.shapeCast_a_a1_apply]
  rw [Cert.Lib.VecIx2.reduce_rows']
  simp only [negEntCol_apply, divf_apply, broadcast_apply, scalar_ofBits]
  unfold finish
  rw [Ideal.ofBits_zero_f32]
  simp only [zero_sub]

end Cert.KernelIdeal.Payload

end
-- ==== Proof.KernelChain.lean ====
/-
  The two accumulators point by point, and their values over the extended reals.

  After grid point n the entropy accumulator holds the update, by tile n, of what it held after point n − 1 (of
  zero at the first point), and likewise the block-sum accumulator. So after point n the first holds
  Σ_{j ≤ n} (tile j's total of zero minus Σ_k exp ℓ · ℓ over its 64 × 64 rows) and the second, at (m, k),
  Σ_{j ≤ n} Σ_p tile j[p, m, k]: an induction on the point, zero being neutral for the first step. After the last
  point the output holds the closing arithmetic of the two totals.
-/
import proofs.«164480_j472446403063_2_alg».proof.Proof.KernelCases
import proofs.«164480_j472446403063_2_alg».proof.Proof.KernelPayload

noncomputable section

namespace Cert.KernelIdeal.Chain

open Idealize.ShloMosaic Idealize.ShloMosaic.TcCoe Idealize.SL.Sem Idealize.ShloMosaic.ValueIdx
open Cert.KernelIdeal Cert.KernelIdeal.Gen Cert.KernelIdeal.Cases Cert.KernelIdeal.Payload Cert.Entropy

section AnyValues

variable {F : FTy → Type} [FloatOps F]
variable (m : (ℓ : Loc nD τ sig) → Buf (Elt F) ℓ)

/-- The tile the body loads at point t, at the vector type the body's terms take. -/
abbrev tileAt (c : Dev nD) (t : Fin cfg0.N) : Vec F S64x64x256 .f32 := iblk m c 0 t

/-- The accumulators after point n: the entropy accumulator and the block-sum accumulator, each the update by
    tile n of what the point before left, from zero at the first point. -/
def accs (c : Dev nD) : (n : ℕ) → n < cfg0.N → Vec F S1x1 .f32 × Vec F S64x256 .f32
  | 0, h => (k0_pay5 (tileAt m c ⟨0, h⟩) (k0_pay2 (F := F)), k0_pay6 (tileAt m c ⟨0, h⟩) (k0_pay3 (F := F)))
  | n + 1, h => (k0_pay5 (tileAt m c ⟨n + 1, h⟩) (accs c n (Nat.lt_of_succ_lt h)).1,
      k0_pay6 (tileAt m c ⟨n + 1, h⟩) (accs c n (Nat.lt_of_succ_lt h)).2)

/-- What the frame's point-by-point record holds for the two accumulators is that chain. -/
theorem scratch_eq (c : Dev nD) : ∀ (n : ℕ) (h : n < cfg0.N), (outsAt0 m c n h).2 = accs m c n h
  | 0, h => by
    rw [outsAt0_A m c ⟨0, h⟩ rfl (by dsimp only; omega)]
    dsimp only
    rw [first_ent, first_sum]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [last_ent, last_sum]
      show (k0_pay5 _ (outsAt0 m c n _).2.1, k0_pay6 _ (outsAt0 m c n _).2.2) = _
      rw [scratch_eq c n]
      rfl
    · rw [outsAt0_B m c ⟨n + 1, h⟩ h0 h1]
      dsimp only
      rw [mid_ent, mid_sum]
      show (k0_pay5 _ (outsAt0 m c n _).2.1, k0_pay6 _ (outsAt0 m c n _).2.2) = _
      rw [scratch_eq c n]
      rfl

/-- The output after the last point: the closing arithmetic of the two accumulators after it. -/
theorem out_eq (c : Dev nD) (h : 63 < cfg0.N) :
    (outsAt0 m c 63 h).1 = k0_pay1 (accs m c 63 h).2 (accs m c 63 h).1 := by
  rw [outsAt0_C m c ⟨63, h⟩ (by dsimp only; omega) (by dsimp only)]
  dsimp only
  rw [last_out]
  show k0_pay1 (k0_pay6 _ (outsAt0 m c 62 _).2.2) (k0_pay5 _ (outsAt0 m c 62 _).2.1) = _
  rw [scratch_eq m c 62]
  rfl

end AnyValues

/-! ## The values over the extended reals -/

variable (m : (ℓ : Loc nD τ sig) → Buf (Elt Ideal) ℓ)

/-- Tile j's total of zero minus Σ_k exp ℓ · ℓ over its rows (zero past the grid). -/
def tileEnt (c : Dev nD) (j : ℕ) : EReal :=
  if hj : j < cfg0.N then
    ∑ p : Fin 64, ∑ n : Fin 64,
      (Ideal.ofBits .f32 0x00000000#32 - plogp (fun k => tileAt (F := Ideal) m c ⟨j, hj⟩ (ix3 p n k)))
  else 0

/-- Tile j summed over its leading axis at (mm, k) (zero past the grid). -/
def tileSum (c : Dev nD) (j : ℕ) (mm : Fin 64) (k : Fin 256) : EReal :=
  if hj : j < cfg0.N then ∑ p : Fin 64, tileAt (F := Ideal) m c ⟨j, hj⟩ (ix3 p mm k) else 0

theorem pay2_apply (y : S1x1.Idx) : k0_pay2 (F := Ideal) y = 0 := by
  unfold k0_pay2
  rw [shapeCast_self]
  exact Ideal.ofBits_zero_f32

theorem pay3_apply (y : S64x256.Idx) : k0_pay3 (F := Ideal) y = 0 := by
  unfold k0_pay3
  rw [shapeCast_self]
  exact Ideal.ofBits_zero_f32

/-- The entropy accumulator after point n is the sum of the tiles' totals up to n. -/
theorem ent_eq (c : Dev nD) : ∀ (n : ℕ) (h : n < cfg0.N) (y : S1x1.Idx),
    (accs (F := Ideal) m c n h).1 y = ∑ j ∈ Finset.range (n + 1), tileEnt m c j
  | 0, h, y => by
    show k0_pay5 (F := Ideal) (tileAt m c ⟨0, h⟩) (k0_pay2 (F := Ideal)) y = _
    rw [pay5_apply (tileAt m c ⟨0, h⟩) (k0_pay2 (F := Ideal)) y, pay2_apply, zero_add, Finset.sum_range_one]
    unfold tileEnt
    rw [dif_pos h]
  | n + 1, h, y => by
    show k0_pay5 (F := Ideal) (tileAt m c ⟨n + 1, h⟩) (accs m c n _).1 y = _
    rw [pay5_apply (tileAt m c ⟨n + 1, h⟩) (accs m c n _).1 y, ent_eq c n _ y, Finset.sum_range_succ _ (n + 1)]
    congr 1
    unfold tileEnt
    rw [dif_pos h]

/-- The block-sum accumulator after point n is, entry by entry, the sum of the tiles' sums up to n. -/
theorem sum_eq (c : Dev nD) : ∀ (n : ℕ) (h : n < cfg0.N) (mm : Fin 64) (k : Fin 256),
    (accs (F := Ideal) m c n h).2 (ix2 mm k) = ∑ j ∈ Finset.range (n + 1), tileSum m c j mm k
  | 0, h, mm, k => by
    show k0_pay6 (F := Ideal) (tileAt m c ⟨0, h⟩) (k0_pay3 (F := Ideal)) (ix2 mm k) = _
    rw [pay6_apply (tileAt m c ⟨0, h⟩) (k0_pay3 (F := Ideal)) mm k, pay3_apply, zero_add, Finset.sum_range_one]
    unfold tileSum
    rw [dif_pos h]
  | n + 1, h, mm, k => by
    show k0_pay6 (F := Ideal) (tileAt m c ⟨n + 1, h⟩) (accs m c n _).2 (ix2 mm k) = _
    rw [pay6_apply (tileAt m c ⟨n + 1, h⟩) (accs m c n _).2 mm k, sum_eq c n _ mm k,
      Finset.sum_range_succ _ (n + 1)]
    congr 1
    unfold tileSum
    rw [dif_pos h]

/-- The output after the last point: the closing arithmetic of the totals over all 64 tiles. -/
theorem out_apply (c : Dev nD) (h : 63 < cfg0.N) (y : S1x1.Idx) :
    (outsAt0 (F := Ideal) m c 63 h).1 y
      = finish (fun mm k => ∑ j ∈ Finset.range 64, tileSum m c j mm k) (∑ j ∈ Finset.range 64, tileEnt m c j) := by
  rw [out_eq m c h, pay1_apply (accs m c 63 h).2 (accs m c 63 h).1 y, ent_eq m c 63 h y]
  congr 1
  funext mm k
  exact sum_eq m c 63 h mm k

end Cert.KernelIdeal.Chain

end
-- ==== Proof.KernelRun.lean ====
/-
  The kernel program's run: its result is the loss of the argument array.

  The region's input array is the argument reshaped to [4096, 64, 256], entry (t, m, k) the argument's entry
  (t, m·256 + k); the tile at grid point i holds rows i·64 … i·64 + 63 of it. The output's one block is written
  back once, after the last point, and is the whole [1, 1] array; the line after the region reshapes it to a scalar.
  With the accumulators' totals over all 64 tiles being the sums over all 4096 rows taken tile by tile, that scalar
  is the loss.
-/
import proofs.«164480_j472446403063_2_alg».proof.Proof.KernelChain
import proofs.«164480_j472446403063_2_alg».proof.Proof.Array3
import Idealize.ShloMosaic.Lib.StableHlo.Run

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Chain Cert.Entropy

variable (m : (ℓ : Loc nD τ sig) → Buf (Elt Ideal) ℓ) (ρ : Dev nD → PrngReg)

/-- The region finds the reshaped argument in its input array. -/
theorem V_main_v0 (c : Dev nD) :
    (V m c main_v0 : S4096x64x256.Idx → EReal)
      = shapeCast S4096x64x256 (m ((c : Thread nD τ).loc main_arg0)) shapeCasts_S4096x16384_S4096x64x256 := by
  show StableHlo.after hostOps0 (fun b => m (c, b)) (Proc.devRef .tc main_v0) = _
  after_results
  rfl

/-- The input window's block index at point t is (t, 0, 0). -/
theorem idx_facts : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Row p of the tile at point t is row t·64 + p of the array. -/
theorem tile_apply (c : Dev nD) (t : Fin cfg0.N) (ht : t.val < 64) (p n : Fin 64) (k : Fin 256) :
    tileAt (F := Ideal) m c t (ix3 p n k)
      = arr3 (m ((c : Thread nD τ).loc main_arg0)) (tileRow ⟨t.val, ht⟩ p) n k := by
  obtain ⟨h0, h1, h2⟩ := idx_facts t
  rw [← reshape_apply _ shapeCasts_S4096x16384_S4096x64x256, ← V_main_v0 m c]
  unfold tileAt iblk
  rw [View.read_apply]
  show V m c main_v0 _ = V m c main_v0 _
  congr 1
  funext a
  apply Fin.ext
  match a with
  | ⟨0, _⟩ => show win0_0.index t 0 * 64 + 1 * p.val = t.val * 64 + p.val; rw [h0]; omega
  | ⟨1, _⟩ => show win0_0.index t 1 * 64 + 1 * n.val = n.val; rw [h1]; omega
  | ⟨2, _⟩ => show win0_0.index t 2 * 256 + 1 * k.val = k.val; rw [h2]; omega

/-- The result: the closing arithmetic of the accumulators' totals over the 64 tiles. -/
def total (c : Dev nD) : EReal :=
  finish (fun mm k => ∑ j ∈ Finset.range 64, tileSum m c j mm k) (∑ j ∈ Finset.range 64, tileEnt m c j)

/-- The totals over the tiles are the sums over all rows: the result is the loss of the argument. -/
theorem total_eq (c : Dev nD) : total m c = loss (arr3 (m ((c : Thread nD τ).loc main_arg0))) := by
  have hN : cfg0.N = 64 := N_0
  rw [loss_tiled]
  unfold total
  congr 1
  · funext mm k
    rw [Finset.sum_range]
    refine Finset.sum_congr rfl fun i _ => ?_
    unfold tileSum
    rw [dif_pos (by rw [hN]; exact i.isLt)]
    refine Finset.sum_congr rfl fun p _ => ?_
    exact tile_apply m c ⟨i.val, _⟩ i.isLt p mm k
  · rw [Finset.sum_range]
    refine Finset.sum_congr rfl fun i _ => ?_
    unfold tileEnt
    rw [dif_pos (by rw [hN]; exact i.isLt)]
    refine Finset.sum_congr rfl fun p _ => Finset.sum_congr rfl fun n _ => ?_
    rw [Ideal.ofBits_zero_f32, zero_sub]
    congr 2
    funext k
    exact tile_apply m c ⟨i.val, _⟩ i.isLt p n k

/-- The last grid point. -/
abbrev tLast : Fin cfg0.N := ⟨63, by decide⟩

/-- The output array's contents after the run. -/
abbrev result (c : Dev nD) : Buf (Elt Ideal) ((c : Thread nD τ).loc main_v1) := fun _ => total m c

/-- What the body leaves in the output's staging buffer after the last point is the result at every index. -/
theorem out_last (c : Dev nD) : (outsAt0 (F := Ideal) m c tLast.val tLast.isLt).1 = result m c :=
  funext fun y => out_apply m c tLast.isLt y

/-- The one write-back, after the last point, writes the result: block (0, 0) of the [1, 1] array is the array. -/
theorem flushed_eq (c : Dev nD) (t : Fin cfg0.N) (hf : (cfg0.win 1).flush t = true) :
    (dats m 0 c).flushed 1 t = ((cfg0.win 1).blk t).view.read (Elt Ideal) (result m c) := by
  have hN : cfg0.N = 64 := N_0
  have h63 : t.val = 63 := by have := (flush0_1 t).mp hf; have := t.isLt; omega
  obtain rfl : t = tLast := Fin.ext h63
  show (cfg0.win 1).cut (grid0.coords tLast) ((dats m 0 c).after 1 tLast) = _
  rw [after0_1, out_last]
  have hz' : (fun a => win0_1.index tLast a * main_v1.ty.shape.size a) = fun _ => 0 :=
    funext fun a => by fin_cases a <;> decide
  exact (Memref.read_access_unit_zero (Elt Ideal) main_v1 hz' (fun a => by rw [congrFun hz' a]; simp) (result m c)).symm

/-- So the output array ends holding the result. -/
theorem final (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

/-- The line after the region reshapes the [1, 1] array to the scalar result. -/
theorem tail_eq (c : Dev nD) :
    Pipeline.afterTail₀ cfgs (dats m) 0 (V0 m) [hostOps1] c main_v2 = fun _ => total m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = result m c from (Pipeline.withArrays_arr spec0 launch0.win.arr_inj c _ _ 1).trans (final m c)]
  rfl

/-- The run, read: the scalar result at the loss of the argument array, the argument unchanged. -/
theorem run : θ_run defs (onTc (τ := τ) (main (F := Ideal))) ⟨m, fun _ => 0, ρ⟩ fun r => ∀ c : Dev nD,
      r.2.mem ((c : Thread nD τ).loc main_v2) = (fun _ => loss (arr3 (m ((c : Thread nD τ).loc main_arg0))))
      ∧ r.2.mem ((c : Thread nD τ).loc main_arg0) = m ((c : Thread nD τ).loc main_arg0) :=
  (θ_run defs _ _).mono (fun _ h c =>
      ⟨(((h c).2 main_v2 (Pipeline.mem_restRefs_of main_v2 (by decide) (by decide))).trans (tail_eq m c)).trans
          (by rw [total_eq]),
        ((h c).2 main_arg0 (Pipeline.mem_restRefs_of main_arg0 (by decide) (by decide))).trans (W_main_arg0 m (dats m) c)⟩)
    (run_main m ρ)

end Cert.KernelIdeal.Run

end
-- ==== Proof.lean ====
/-
  The claim: a streaming entropy loss over block_feats[4096, 16384], seen as x[t, m, k] with 64 blocks m of 256
  lanes k in each of the 4096 rows t,

      (Σ_t Σ_m H(softmax x[t, m, ·])) / 262144  +  1 · ( −(Σ_m H(softmax (Σ_t x[t, m, ·] / 4096))) / 64 ),

  H the entropy, computed through the log-softmax with the row's maximum subtracted.

  The kernel streams the rows in 64 tiles of 64 rows: at every grid point it adds the tile's total of the rows'
  entropies to one accumulator and the tile's column sums to another (both zeroed at the first point), and at the
  last point it writes the closing arithmetic of the two. The reference sums over all rows at once. Over the
  extended reals every operation is the same function on both sides (the same maximum from −∞, exponential,
  logarithm, quotient by the same words), zero minus a value is its negative, zero plus a sum is the sum, and a sum
  over the 4096 rows is the sum over the tiles of the sums over each tile's rows — addition of extended reals is
  commutative and associative, so this holds at every input and the precondition is not used for the values.

  The three frames: the two kernel programs' are their frame certificates; the reference's is its run with the
  result dropped. The kernel's idealization rewrote nothing.
-/
import proofs.«164480_j472446403063_2_alg».proof.Defs
import proofs.«164480_j472446403063_2_alg».proof.Proof.Gen.Kernel
import proofs.«164480_j472446403063_2_alg».proof.Proof.Gen.Kernel.Frame
import proofs.«164480_j472446403063_2_alg».proof.Proof.Gen.KernelIdeal
import proofs.«164480_j472446403063_2_alg».proof.Proof.Gen.KernelIdeal.Frame
import proofs.«164480_j472446403063_2_alg».proof.Proof.Gen.ReferenceIdeal
import proofs.«164480_j472446403063_2_alg».proof.Proof.Gen.Pre_finite_inputs
import proofs.«164480_j472446403063_2_alg».proof.Proof.RefRead
import proofs.«164480_j472446403063_2_alg».proof.Proof.KernelRun
import Idealize.ShloMosaic.Adequacy
import Idealize.ShloMosaic.Init

noncomputable section

namespace Cert.Proof

open Idealize.ShloMosaic Idealize.ShloMosaic.TcCoe Idealize.SL.Sem Cert.Entropy

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the loss of the argument array as their scalar result. -/
theorem algebraic : Cert.algebraic_KernelIdeal_ReferenceIdeal := by
  intro m ρ m' ρ' _ hagree
  refine ⟨fun c => fun _ => loss (arr3 (m ((c.tc : Thread Cert.KernelIdeal.nD Cert.KernelIdeal.τ).loc Cert.KernelIdeal.main_arg0))),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v20_eq, hagree c]
  funext i
  exact Cert.RefRead.result_eq _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
